-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_3136" .f32 0x39A72F05#32 ((1 / 3136 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x56x56 .f32) (main_arg1 : FVec F S256x256 .f32) (main_arg2 : FVec F S256 .f32) (main_arg3 : FVec F S256x256 .f32) (main_arg4 : FVec F S256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S32x256x56x56 : Shape := ⟨4, ![32, 256, 56, 56]⟩
abbrev S256x256 : Shape := ⟨2, ![256, 256]⟩
abbrev S256 : Shape := ⟨1, ![256]⟩
abbrev S32x256 : Shape := ⟨2, ![32, 256]⟩
abbrev S8x128x56x56 : Shape := ⟨4, ![8, 128, 56, 56]⟩
abbrev S8x128 : Shape := ⟨2, ![8, 128]⟩
abbrev S8x128x56 : Shape := ⟨3, ![8, 128, 56]⟩
abbrev S8x128x56x1 : Shape := ⟨4, ![8, 128, 56, 1]⟩
abbrev S8x128x1 : Shape := ⟨3, ![8, 128, 1]⟩
abbrev S8x128x1x1 : Shape := ⟨4, ![8, 128, 1, 1]⟩
abbrev S1x256 : Shape := ⟨2, ![1, 256]⟩
abbrev S16x256x8x56 : Shape := ⟨4, ![16, 256, 8, 56]⟩
abbrev S16x256 : Shape := ⟨2, ![16, 256]⟩
abbrev S16x256x1x1 : Shape := ⟨4, ![16, 256, 1, 1]⟩

abbrev nBuf : Space → Nat
  | .hbm => 8
  | .vmem => 16
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S32x256, .f32⟩
  | .hbm, ⟨6, _⟩ => ⟨S32x256, .f32⟩
  | .hbm, ⟨7, _⟩ => ⟨S32x256x56x56, .f32⟩
  | .local _ .vmem, ⟨0, _⟩ => ⟨S8x128x56x56, .f32⟩
  | .local _ .vmem, ⟨1, _⟩ => ⟨S8x128x56x56, .f32⟩
  | .local _ .vmem, ⟨2, _⟩ => ⟨S8x128, .f32⟩
  | .local _ .vmem, ⟨3, _⟩ => ⟨S8x128, .f32⟩
  | .local _ .vmem, ⟨4, _⟩ => ⟨S32x256, .f32⟩
  | .local _ .vmem, ⟨5, _⟩ => ⟨S256x256, .f32⟩
  | .local _ .vmem, ⟨6, _⟩ => ⟨S256, .f32⟩
  | .local _ .vmem, ⟨7, _⟩ => ⟨S256x256, .f32⟩
  | .local _ .vmem, ⟨8, _⟩ => ⟨S256, .f32⟩
  | .local _ .vmem, ⟨9, _⟩ => ⟨S32x256, .f32⟩
  | .local _ .vmem, ⟨10, _⟩ => ⟨S16x256x8x56, .f32⟩
  | .local _ .vmem, ⟨11, _⟩ => ⟨S16x256x8x56, .f32⟩
  | .local _ .vmem, ⟨12, _⟩ => ⟨S16x256, .f32⟩
  | .local _ .vmem, ⟨13, _⟩ => ⟨S16x256, .f32⟩
  | .local _ .vmem, ⟨14, _⟩ => ⟨S16x256x8x56, .f32⟩
  | .local _ .vmem, ⟨15, _⟩ => ⟨S16x256x8x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![2, 7], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S16x256x8x56 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S16x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S16x256x8x56 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S8x128x56x56_S8x128x56x56_0_0_0_0 : ∀ a, (![0, 0, 0, 0] : Fin 4 → Nat) a + S8x128x56x56.size a ≤ S8x128x56x56.size a
  h_S8x128x56x56 : 0 < S8x128x56x56.numel
  reduces_S8x128x56x56_S8x128x56 : S8x128x56x56.Reduces [3] S8x128x56
  shapeCasts_S8x128x56_S8x128x56x1 : S8x128x56.ShapeCasts S8x128x56x1
  reduces_S8x128x56x1_S8x128x1 : S8x128x56x1.Reduces [2] S8x128x1
  shapeCasts_S8x128x1_S8x128x1x1 : S8x128x1.ShapeCasts S8x128x1x1
  shapeCasts_S8x128x1x1_S8x128 : S8x128x1x1.ShapeCasts S8x128
  inb_S8x128_S8x128_0_0 : ∀ a, (![0, 0] : Fin 2 → Nat) a + S8x128.size a ≤ S8x128.size a
  h_S8x128 : 0 < S8x128.numel
  inb_S32x256_S32x256_0_0 : ∀ a, (![0, 0] : Fin 2 → Nat) a + S32x256.size a ≤ S32x256.size a
  h_S32x256 : 0 < S32x256.numel
  shapeCasts_S32x256_S32x256 : S32x256.ShapeCasts S32x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S16x256x1x1 : S16x256.ShapeCasts S16x256x1x1
  inb_S16x256x8x56_S16x256x8x56_0_0_0_0 : ∀ a, (![0, 0, 0, 0] : Fin 4 → Nat) a + S16x256x8x56.size a ≤ S16x256x8x56.size a
  h_S16x256x8x56 : 0 < S16x256x8x56.numel
  broadcasts_S16x256x1x1_S16x256x8x56 : S16x256x1x1.Broadcasts S16x256x8x56
  dot_S32x256_S256x256_S32x256_1_1_0_0_n_n_wf : DotDims.WF S32x256 S256x256 S32x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x56x56.size a ≤ S32x256x56x56.size a
  hwx0_0 : ∀ i : grid0.Coords, EltTy.bits .f32 = 32 ∨ (Rect.block (s := S32x256x56x56) S8x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x256.size a
  hwx0_1 : ∀ i : grid0.Coords, EltTy.bits .f32 = 32 ∨ (Rect.block (s := S32x256) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S32x256.size a
  hwx1_0 : ∀ i : grid1.Coords, EltTy.bits .f32 = 32 ∨ (Rect.block (s := S32x256) S32x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x256.size a ≤ S32x256.size a
  hwx1_5 : ∀ i : grid1.Coords, EltTy.bits .f32 = 32 ∨ (Rect.block (s := S32x256) S32x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x256x8x56.size a ≤ S32x256x56x56.size a
  hwx2_0 : ∀ i : grid2.Coords, EltTy.bits .f32 = 32 ∨ (Rect.block (s := S32x256x56x56) S16x256x8x56.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x256.size a ≤ S32x256.size a
  hwx2_1 : ∀ i : grid2.Coords, EltTy.bits .f32 = 32 ∨ (Rect.block (s := S32x256) S16x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x256x8x56.size a ≤ S32x256x56x56.size a
  hwx2_2 : ∀ i : grid2.Coords, EltTy.bits .f32 = 32 ∨ (Rect.block (s := S32x256x56x56) S16x256x8x56.size (cc2_transform_2 i) (hinb2_2 i)).WholeWords (EltTy.packing .f32)

variable [Facts₀]

def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf

abbrev win0_0 : Pipeline.Window sig grid0 :=
  Pipeline.Window.ofSpec (Memref.whole main_arg0) S8x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S32x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S32x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S16x256x8x56.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S16x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S16x256x8x56.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x256x56x56 : Shape := ⟨4, ![32, 256, 56, 56]⟩
abbrev S256x256 : Shape := ⟨2, ![256, 256]⟩
abbrev S256 : Shape := ⟨1, ![256]⟩
abbrev S_ : Shape := ⟨0, ![]⟩
abbrev S32x256 : Shape := ⟨2, ![32, 256]⟩
abbrev S1x256 : Shape := ⟨2, ![1, 256]⟩
abbrev S32x256x1x1 : Shape := ⟨4, ![32, 256, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S1x256, .f32⟩
  | .hbm, ⟨12, _⟩ => ⟨S32x256, .f32⟩
  | .hbm, ⟨13, _⟩ => ⟨S32x256, .f32⟩
  | .hbm, ⟨14, _⟩ => ⟨S_, .f32⟩
  | .hbm, ⟨15, _⟩ => ⟨S32x256, .f32⟩
  | .hbm, ⟨16, _⟩ => ⟨S32x256, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S_, .f32⟩
  | .hbm, ⟨27, _⟩ => ⟨S32x256, .f32⟩
  | .hbm, ⟨28, _⟩ => ⟨S32x256, .f32⟩
  | .hbm, ⟨29, _⟩ => ⟨S32x256x1x1, .f32⟩
  | .hbm, ⟨30, _⟩ => ⟨S32x256x56x56, .f32⟩
  | .hbm, ⟨31, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x256x56x56_S32x256_d2_3 : S32x256x56x56.ReducesTo [2, 3] S32x256
  h_S_ : 0 < S_.numel
  bcast_S_S32x256 : S_.BroadcastsInDim S32x256 (![] : Fin 0 → Fin S32x256.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S32x256_S32x256x1x1_0_1 : S32x256.BroadcastsInDim S32x256x1x1 (![0, 1] : Fin 2 → Fin S32x256x1x1.rank)
  bcast_S32x256x1x1_S32x256x56x56_0_1_2_3 : S32x256x1x1.BroadcastsInDim S32x256x56x56 (![0, 1, 2, 3] : Fin 4 → Fin S32x256x56x56.rank)
  dot_S32x256_S256x256_S32x256_1_1_0_0_n_n_wf : DotDims.WF S32x256 S256x256 S32x256 [1] [1] [0] [0] [] []

variable [Facts₀]

def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf

class Facts : Prop extends Facts₀ where

variable [Facts]
-- ==== Proof.KRun.lean ====
/-
  The idealized kernel's run, with its result named.  @main is three pallas_calls in a row and nothing else, so the
  contents of every buffer at the return are the launch memory folded through the three regions' write-backs (the generated
  frame's `W3`).  The frame theorem reads that fold at the five argument arrays; here the same run is read at the result
  array `main_v2` as well, which is what the value claim needs: after the run `main_v2` holds `W3 … main_v2`, and the
  arguments are as launched.
-/
import proofs.«103439_j1580547967692_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end the result array holds the fold of the
    three regions' write-backs read at `main_v2`, and the five argument arrays are unchanged. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Named

end
-- ==== Proof.Spec.lean ====
/-
  The function both programs compute, written once over the extended reals.

  For an input `x` of shape [32, 256, 56, 56] and two dense layers (`W1`, `b1`), (`W2`, `b2`) on 256 channels:

    pooled (n, c)  = (∑ h, ∑ w, x (n, c, h, w)) · (1/3136)              the mean over the 56 × 56 plane
    hidden (n, o)  = max (∑ k, pooled (n, k) · W1 (o, k) + b1 o) 0      a dense layer and a rectifier
    gate   (n, o)  = logistic (∑ k, hidden (n, k) · W2 (o, k) + b2 o)   a dense layer and the logistic function
    result (n, c, h, w) = x (n, c, h, w) · gate (n, c)                   every plane scaled by its channel's gate

  Also here: the two float literals the reference spells (3136 and 1), and the one law that joins the two programs'
  spellings of the mean — a quotient by 3136 is the product with 1/3136 on every extended real.
-/
import Idealize.ShloMosaic.PureOps.Ideal
import Idealize.ShloMosaic.PureOps.Ideal.Laws
import Idealize.ShloMosaic.Lib.ValueIdx

noncomputable section

namespace Cert.SqueezeExcite

open Idealize.ShloMosaic Idealize.ShloMosaic.ValueIdx

/-- The index types of the arrays, over literal extents. -/
abbrev I4 : Type := (⟨4, ![32, 256, 56, 56]⟩ : Shape).Idx
abbrev I2 : Type := (⟨2, ![32, 256]⟩ : Shape).Idx
abbrev IW : Type := (⟨2, ![256, 256]⟩ : Shape).Idx
abbrev IB : Type := (⟨1, ![256]⟩ : Shape).Idx

/-- The reciprocal of a plane's area, 56 · 56 = 3136. -/
abbrev invArea : EReal := ((1 / 3136 : ℝ) : EReal)

/-- The mean of plane (n, c). -/
def pooledAt (x : I4 → EReal) (n : Fin 32) (c : Fin 256) : EReal :=
  (∑ h : Fin 56, ∑ w : Fin 56, x (ix4 n c h w)) * invArea

def pooled (x : I4 → EReal) : I2 → EReal := fun j => pooledAt x (j 0) (j 1)

/-- A dense layer at (n, o): row n of `p` against row o of `W`, plus the bias. -/
def affineAt (p : I2 → EReal) (W : IW → EReal) (bias : IB → EReal) (n : Fin 32) (o : Fin 256) : EReal :=
  (∑ k : Fin 256, p (ix2 n k) * W (ix2 o k)) + bias (ix1 o)

def hidden (p : I2 → EReal) (W : IW → EReal) (bias : IB → EReal) : I2 → EReal :=
  fun j => max (affineAt p W bias (j 0) (j 1)) 0

def gate (q : I2 → EReal) (W : IW → EReal) (bias : IB → EReal) : I2 → EReal :=
  fun j => Ideal.logistic (affineAt q W bias (j 0) (j 1))

/-- Every plane scaled by its channel's gate. -/
def scaled (x : I4 → EReal) (g : I2 → EReal) : I4 → EReal := fun i => x i * g (ix2 (i 0) (i 1))

/-- The whole function. -/
def result (x : I4 → EReal) (W1 : IW → EReal) (b1 : IB → EReal) (W2 : IW → EReal) (b2 : IB → EReal) : I4 → EReal :=
  scaled x (gate (hidden (pooled x) W1 b1) W2 b2)

/-! ## The literals -/

/-- `3136.0` denotes the real 3136. -/
theorem ofBits_3136 : Ideal.ofBits .f32 0x45440000#32 = ((3136 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-! ## The mean, spelt as a quotient -/

/-- Dividing by 3136 is multiplying by 1/3136, at the infinities too. -/
theorem div_area (s : EReal) : Ideal.div s ((3136 : ℝ) : EReal) = s * invArea :=
  Ideal.div_coe (by norm_num) s

end Cert.SqueezeExcite

end
-- ==== Proof.PoolBody.lean ====
/-
  The pool kernel's body at an entry.  On a [8, 128, 56, 56] block the body sums over the last axis, then over the
  (now third) axis of the result kept as [8, 128, 56, 1], squeezes the two unit axes away and multiplies by the named
  constant, which denotes 1/3136: entry (p, q) of what it stores is (∑ h, ∑ w, block (p, q, h, w)) · (1/3136).
-/
import proofs.«103439_j1580547967692_1_alg».proof.Proof.Gen.KernelIdeal.Skeleton
import proofs.«103439_j1580547967692_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The kernel's named reciprocal denotes the rational 1/3136, by the program's table of named constants. -/
theorem inv_area : Named.named (F := Ideal) κ "inv_3136" (φ := .f32) 0x39A72F05#32 = SqueezeExcite.invArea :=
  IdealRules.named_const.ideal_named_scalar _ _ _ _ rfl

/-- A sum over the last axis of a [8, 128, 56, 56] array, at (p, q, h). -/
theorem sum_w (src : FVec Ideal S8x128x56x56 .f32) (hr : S8x128x56x56.Reduces [3] S8x128x56) (hφ : FKind.Formats .f32)
    (hacc : (0x00000000#32 : BitVec 32) = FKind.add.neutral .f32 hφ) (p : Fin 8) (q : Fin 128) (h : Fin 56) :
    multiReduction .add [3] S8x128x56 src 0x00000000#32 hr hφ hacc (ix3 p q h) = ∑ w : Fin 56, src (ix4 p q h w) := by
  refine (Ideal.multiReduction_add_single src 0x00000000#32 hr hφ hacc (ix3 p q h)).trans ?_
  refine Finset.sum_congr rfl fun w _ => congrArg src (funext fun a => Fin.ext ?_)
  match a with
  | ⟨0, _⟩ => rfl
  | ⟨1, _⟩ => rfl
  | ⟨2, _⟩ => rfl
  | ⟨3, _⟩ => rfl

/-- A sum over the third axis of a [8, 128, 56, 1] array, at (p, q, 0). -/
theorem sum_h (src : FVec Ideal S8x128x56x1 .f32) (hr : S8x128x56x1.Reduces [2] S8x128x1) (hφ : FKind.Formats .f32)
    (hacc : (0x00000000#32 : BitVec 32) = FKind.add.neutral .f32 hφ) (p : Fin 8) (q : Fin 128) :
    multiReduction .add [2] S8x128x1 src 0x00000000#32 hr hφ hacc (ix3 p q (0 : Fin 1))
      = ∑ h : Fin 56, src (ix4 p q h (0 : Fin 1)) := by
  refine (Ideal.multiReduction_add_single src 0x00000000#32 hr hφ hacc (ix3 p q (0 : Fin 1))).trans ?_
  refine Finset.sum_congr rfl fun h _ => congrArg src (funext fun a => Fin.ext ?_)
  match a with
  | ⟨0, _⟩ => rfl
  | ⟨1, _⟩ => rfl
  | ⟨2, _⟩ => rfl
  | ⟨3, _⟩ => rfl

/-- Entry (p, q) of the stored mean. -/
theorem pool_at (xb : Vec Ideal S8x128x56x56 .f32) (p : Fin 8) (q : Fin 128) :
    k0_pay1 (F := Ideal) xb (ix2 p q) = (∑ h : Fin 56, ∑ w : Fin 56, xb (ix4 p q h w)) * SqueezeExcite.invArea := by
  unfold k0_pay1
  show _ * Named.named (F := Ideal) κ "inv_3136" (φ := .f32) 0x39A72F05#32 = _
  rw [inv_area]
  refine congrArg (· * SqueezeExcite.invArea) ?_
  -- [8, 128, 1, 1] squeezed to [8, 128]: (p, q) reads (p, q, 0, 0)
  refine (shapeCast_apply _ _ (ix2 p q) (ix4 p q (0 : Fin 1) (0 : Fin 1)) ?_).trans ?_
  · rw [Shape.rowMajor_val_two, Shape.rowMajor_val_four]
    show ((p.val * 128 + q.val) * 1 + 0) * 1 + 0 = p.val * 128 + q.val
    omega
  -- [8, 128, 1] cast to [8, 128, 1, 1]: (p, q, 0, 0) reads (p, q, 0)
  refine (shapeCast_apply _ _ (ix4 p q (0 : Fin 1) (0 : Fin 1)) (ix3 p q (0 : Fin 1)) ?_).trans ?_
  · rw [Shape.rowMajor_val_three, Shape.rowMajor_val_four]
    show (p.val * 128 + q.val) * 1 + 0 = ((p.val * 128 + q.val) * 1 + 0) * 1 + 0
    omega
  -- the sum over h
  refine (sum_h _ _ _ _ p q).trans ?_
  refine Finset.sum_congr rfl fun h _ => ?_
  -- [8, 128, 56] cast to [8, 128, 56, 1]: (p, q, h, 0) reads (p, q, h)
  refine (shapeCast_apply _ _ (ix4 p q h (0 : Fin 1)) (ix3 p q h) ?_).trans ?_
  · rw [Shape.rowMajor_val_three, Shape.rowMajor_val_four]
    show (p.val * 128 + q.val) * 56 + h.val = ((p.val * 128 + q.val) * 56 + h.val) * 1 + 0
    omega
  -- the sum over w
  exact sum_w _ _ _ _ p q h

end Cert.KernelIdeal.Body

end
-- ==== Proof.PoolArray.lean ====
/-
  The pool region as one function of what it finds.  The grid is 4 × 2; at point (i, j) the body sees rows
  8 i … 8 i + 7 and channels 128 j … 128 j + 127 of `x` (whole planes) and writes the same rows and channels of the
  [32, 256] array of means.  Entry by entry the body stores a plane's sum times 1/3136, so each written block is
  that block of `pooled x`; the 8 blocks tile the array, so after the region it is `pooled x`.
-/
import proofs.«103439_j1580547967692_1_alg».proof.Proof.Gen.KernelIdeal.Frame
import proofs.«103439_j1580547967692_1_alg».proof.Proof.PoolBody
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

-- The contents of the TensorCore's buffers when the region is entered: every statement here holds for any.
variable (V : (c : Dev nD) → (b : Ref sig .tc) → Buf (Elt Ideal) ((c : Thread nD τ).loc b))

theorem zero4' : (![0, 0, 0, 0] : Fin 4 → Nat) = fun _ => 0 := funext fun a => by fin_cases a <;> rfl
theorem zero2' : (![0, 0] : Fin 2 → Nat) = fun _ => 0 := funext fun a => by fin_cases a <;> rfl

/-- The printed index maps over the grid: the input block of `x` is at (i, j, 0, 0) where the output block is at (i, j),
    with i ≤ 3 and j ≤ 1. -/
theorem pool_index : ∀ t : Fin cfg0.N,
    win0_0.index t (0 : Fin 4) = win0_1.index t (0 : Fin 2) ∧ win0_0.index t (1 : Fin 4) = win0_1.index t (1 : Fin 2)
    ∧ win0_0.index t (2 : Fin 4) = 0 ∧ win0_0.index t (3 : Fin 4) = 0
    ∧ win0_1.index t (0 : Fin 2) ≤ 3 ∧ win0_1.index t (1 : Fin 2) ≤ 1 :=
  (by decide +kernel : ∀ t : Fin grid0.N, _)

/-- Every block index (i, j) with i < 4 and j < 2 is some point's. -/
theorem pool_onto : ∀ (i : Fin 4) (j : Fin 2), ∃ t : Fin cfg0.N, win0_1.index t = ![i.val, j.val] :=
  (by decide +kernel : ∀ (i : Fin 4) (j : Fin 2), ∃ t : Fin grid0.N, win0_1.index t = ![i.val, j.val])

/-- A double sum of the entries of one plane of `x`, times 1/3136, is an entry of `pooled x`. -/
theorem pooled_block {X : SqueezeExcite.I4 → EReal} {f : Fin 56 → Fin 56 → EReal} (j : SqueezeExcite.I2)
    (hf : ∀ h w, f h w = X (ix4 (n0 := 32) (n1 := 256) (j 0) (j 1) h w)) :
    (∑ h : Fin 56, ∑ w : Fin 56, f h w) * SqueezeExcite.invArea = SqueezeExcite.pooled X j := by
  show _ = (∑ h : Fin 56, ∑ w : Fin 56, X (ix4 (n0 := 32) (n1 := 256) (j 0) (j 1) h w)) * SqueezeExcite.invArea
  exact congrArg (· * SqueezeExcite.invArea) (Finset.sum_congr rfl fun h _ => Finset.sum_congr rfl fun w _ => hf h w)

/-- What point `t` writes back is block `t` of `pooled x`, for `x` as the region finds it. -/
theorem pool_flushed (c : Dev nD) (t : Fin cfg0.N) :
    (dat0 V c).flushed 1 t = ((cfg0.win 1).blk t).view.read (Elt Ideal) (SqueezeExcite.pooled (V c main_arg0)) := by
  show (cfg0.win 1).cut (grid0.coords t) ((dat0 V c).after 1 t) = _
  rw [after0_1]
  unfold out0_1
  rw [View.canon_unit_zero zero2']
  simp only [View.ld_unit_zero (S := S8x128x56x56) zero4']
  obtain ⟨e0, e1, e2, e3, -⟩ := pool_index t
  refine funext fun (j : S8x128.Idx) => ?_
  obtain ⟨p, q, rfl⟩ : ∃ (p : Fin 8) (q : Fin 128), j = ix2 p q := ⟨j 0, j 1, eq_ix2 j⟩
  refine (Body.pool_at (iblk0 V c 0 t) p q).trans ?_
  refine pooled_block (X := V c main_arg0) (((cfg0.win 1).blk t).view.emb (ix2 p q)) (fun h w => ?_)
  show V c main_arg0 (((cfg0.win 0).blk t).view.emb (ix4 p q h w))
    = V c main_arg0 (ix4 (n0 := 32) (n1 := 256) (((cfg0.win 1).blk t).view.emb (ix2 p q) 0) (((cfg0.win 1).blk t).view.emb (ix2 p q) 1) h w)
  refine congrArg (V c main_arg0) ?_
  funext a; apply Fin.ext
  match a with
  | ⟨0, _⟩ => show win0_0.index t (0 : Fin 4) * 8 + 1 * p.val = win0_1.index t (0 : Fin 2) * 8 + 1 * p.val; rw [e0]
  | ⟨1, _⟩ => show win0_0.index t (1 : Fin 4) * 128 + 1 * q.val = win0_1.index t (1 : Fin 2) * 128 + 1 * q.val; rw [e1]
  | ⟨2, _⟩ => show win0_0.index t (2 : Fin 4) * 56 + 1 * h.val = h.val; rw [e2]; omega
  | ⟨3, _⟩ => show win0_0.index t (3 : Fin 4) * 56 + 1 * w.val = w.val; rw [e3]; omega

/-- An index of the array of means is in point `t`'s block iff each coordinate is in the block's range on its axis. -/
theorem pool_mem (t : Fin cfg0.N) (i : S32x256.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- The 8 blocks cover the array: entry (n, c) is in the block of point (n / 8, c / 128). -/
theorem pool_cover (i : S32x256.Idx) :
    ∃ t : Fin cfg0.N, (cfg0.win 1).flush t = true ∧ i ∈ ((cfg0.win 1).blk t).view.set := by
  have h0 : (i 0).val < 32 := (i 0).isLt
  have h1 : (i 1).val < 256 := (i 1).isLt
  obtain ⟨t, ht⟩ := pool_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [pool_mem]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- After the region the array of means is `pooled x`, for `x` as the region finds it. -/
theorem pool_final (c : Dev nD) : (dat0 V c).arrAt 1 cfg0.N = SqueezeExcite.pooled (V c main_arg0) :=
  (dat0 V c).arrAt_eq_of_cover 1 _ (fun t _ => pool_flushed V c t) pool_cover

end Cert.KernelIdeal.Arrays

end
-- ==== Proof.DenseBody.lean ====
/-
  The excite kernel's body at an entry.  Each of its two layers multiplies a [32, 256] array with a [256, 256] weight
  array, contracting the second axis of both, into a zero accumulator, and adds a bias row cast to [1, 256] and
  broadcast over the 32 rows: entry (n, o) of a layer is ∑ k, l (n, k) · r (o, k) + bias o.  The first layer is followed
  by a maximum with zero, the second by the logistic function; changes of float format are the identity on the extended
  reals.  So entry (n, o) of what the body stores is the gate of the specification at (n, o).
-/
import proofs.«103439_j1580547967692_1_alg».proof.Proof.Gen.KernelIdeal.Skeleton
import proofs.«103439_j1580547967692_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- The contraction's dimension numbers, as the kernel's program names them. -/
abbrev DD : DotDims S32x256 S256x256 S32x256 := dot_S32x256_S256x256_S32x256_1_1_0_0_n_n

theorem lhs_row (i : S32x256.Idx) (q : DD.contr.Idx) : (DD.lhsIdx i q 0).val = (i 0).val := by
  unfold DotDims.lhsIdx
  rw [dif_neg (show ¬(0 : Fin S32x256.rank) ∈ DD.lhsBatch by decide), dif_pos (show (0 : Fin S32x256.rank) ∈ DD.lhsNonContracting by decide)]
  rfl
theorem lhs_col (i : S32x256.Idx) (q : DD.contr.Idx) : (DD.lhsIdx i q 1).val = (q ⟨0, by decide⟩).val :=
  DD.lhsIdx_val_of_single rfl i q
theorem rhs_row (i : S32x256.Idx) (q : DD.contr.Idx) : (DD.rhsIdx i q 0).val = (i 1).val := by
  unfold DotDims.rhsIdx
  rw [dif_neg (show ¬(0 : Fin S256x256.rank) ∈ DD.rhsBatch by decide), dif_pos (show (0 : Fin S256x256.rank) ∈ DD.rhsNonContracting by decide)]
  rfl
theorem rhs_col (i : S32x256.Idx) (q : DD.contr.Idx) : (DD.rhsIdx i q 1).val = (q ⟨0, by decide⟩).val :=
  DD.rhsIdx_val_of_single rfl i q

/-- The product into a zero accumulator at (n, o): row n of the left operand against row o of the right one. -/
theorem matmul_at {φ₁ φ₂ : FTy} (l : FVec Ideal S32x256 φ₁) (r : FVec Ideal S256x256 φ₂) (n : Fin 32) (o : Fin 256) :
    matmul dot_S32x256_S256x256_S32x256_1_1_0_0_n_n none l r (constant S32x256 .f32 0x00000000#32) (ix2 n o)
      = ∑ k : Fin 256, l (ix2 n k) * r (ix2 o k) := by
  refine (Ideal.matmul_constant_zero_apply DD none l r (ix2 n o)).trans ?_
  rw [← Equiv.sum_comp (ValueIdx.contrEquiv1 DD 256 rfl rfl).symm]
  refine Finset.sum_congr rfl fun k _ => ?_
  have hk := ValueIdx.contrEquiv1_symm_val DD 256 rfl rfl k
  have el : DD.lhsIdx (ix2 n o) ((ValueIdx.contrEquiv1 DD 256 rfl rfl).symm k) = ix2 n k := funext fun a => Fin.ext (by
    match a with
    | ⟨0, _⟩ => exact lhs_row _ _
    | ⟨1, _⟩ => exact (lhs_col _ _).trans hk)
  have er : DD.rhsIdx (ix2 n o) ((ValueIdx.contrEquiv1 DD 256 rfl rfl).symm k) = ix2 o k := funext fun a => Fin.ext (by
    match a with
    | ⟨0, _⟩ => exact rhs_row _ _
    | ⟨1, _⟩ => exact (rhs_col _ _).trans hk)
  rw [el, er]

/-- One layer before its nonlinearity, at (n, o). -/
theorem layer_at {φ₁ φ₂ : FTy} (l : FVec Ideal S32x256 φ₁) (r : FVec Ideal S256x256 φ₂) (bias : FVec Ideal S256 .f32)
    (n : Fin 32) (o : Fin 256) :
    addf (matmul dot_S32x256_S256x256_S32x256_1_1_0_0_n_n none l r (constant S32x256 .f32 0x00000000#32))
        (broadcastTo S32x256 (shapeCast S1x256 bias shapeCasts_S256_S1x256) broadcasts_S1x256_S32x256) (ix2 n o)
      = (∑ k : Fin 256, l (ix2 n k) * r (ix2 o k)) + bias (ix1 o) :=
  congrArg₂ (· + ·) (matmul_at l r n o)
    ((broadcastTo_1b_ab_apply _ broadcasts_S1x256_S32x256 n o).trans (shapeCast_a_1a_apply bias shapeCasts_S256_S1x256 0 o))

/-- Entry (n, o) of the stored gate. -/
theorem gate_at (p : Vec Ideal S32x256 .f32) (W1 : Vec Ideal S256x256 .f32) (b1 : Vec Ideal S256 .f32)
    (W2 : Vec Ideal S256x256 .f32) (b2 : Vec Ideal S256 .f32) (n : Fin 32) (o : Fin 256) :
    k1_pay1 (F := Ideal) p W1 b1 W2 b2 (ix2 n o)
      = SqueezeExcite.gate (SqueezeExcite.hidden p W1 b1) W2 b2 (ix2 n o) := by
  unfold k1_pay1 SqueezeExcite.gate SqueezeExcite.affineAt
  show Ideal.logistic _ = Ideal.logistic _
  refine congrArg Ideal.logistic ?_
  refine (layer_at _ _ b2 n o).trans ?_
  refine congrArg (· + b2 (ix1 o)) (Finset.sum_congr rfl fun k _ => ?_)
  refine congrArg (· * W2 (ix2 o k)) ?_
  -- the rectified first layer at (n, k)
  show max _ (Ideal.ofBits .f32 0x00000000#32) = max (SqueezeExcite.affineAt p W1 b1 n k) 0
  rw [Ideal.ofBits_zero_f32]
  refine congrArg (max · 0) ?_
  refine (layer_at _ _ b1 n k).trans ?_
  unfold SqueezeExcite.affineAt
  rw [shapeCast_self]
  rfl

end Cert.KernelIdeal.Body

end
-- ==== Proof.GateArray.lean ====
/-
  The excite region as one function of what it finds.  Its grid has one point, and each of its six windows is its whole
  array at block index zero: the body sees the means, the two weight arrays and the two biases entire, and writes the
  whole [32, 256] array of gates.  Entry by entry the body stores the specification's gate, so after the region the
  array is `gate (hidden means W1 b1) W2 b2` of the five arrays as the region finds them.
-/
import proofs.«103439_j1580547967692_1_alg».proof.Proof.Gen.KernelIdeal.Frame
import proofs.«103439_j1580547967692_1_alg».proof.Proof.DenseBody
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

-- The contents of the TensorCore's buffers when the region is entered: every statement here holds for any.
variable (V : (c : Dev nD) → (b : Ref sig .tc) → Buf (Elt Ideal) ((c : Thread nD τ).loc b))

theorem zero2'' : (![0, 0] : Fin 2 → Nat) = fun _ => 0 := funext fun a => by fin_cases a <;> rfl
theorem zero1 : (![0] : Fin 1 → Nat) = fun _ => 0 := funext fun a => by fin_cases a; rfl

/-- Every window's block index at the one point is zero on every axis. -/
theorem gate_index : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0 :=
  (by decide +kernel : ∀ t : Fin grid1.N, _)

/-- The grid has a point. -/
theorem gate_point : ∃ t : Fin cfg1.N, True := (by decide +kernel : ∃ t : Fin grid1.N, True)

/-- The gate depends on its five arrays and its index only. -/
theorem gate_congr {p p' : SqueezeExcite.I2 → EReal} {W1 W1' W2 W2' : SqueezeExcite.IW → EReal}
    {b1 b1' b2 b2' : SqueezeExcite.IB → EReal} {j j' : SqueezeExcite.I2}
    (hp : p = p') (h1 : W1 = W1') (hb1 : b1 = b1') (h2 : W2 = W2') (hb2 : b2 = b2') (hj : j = j') :
    SqueezeExcite.gate (SqueezeExcite.hidden p W1 b1) W2 b2 j
      = SqueezeExcite.gate (SqueezeExcite.hidden p' W1' b1') W2' b2' j' := by
  subst hp h1 hb1 h2 hb2 hj; rfl

/-- What the one point writes back is the whole array of gates of the five arrays as the region finds them. -/
theorem gate_flushed (c : Dev nD) (t : Fin cfg1.N) :
    (dat1 V c).flushed 5 t = ((cfg1.win 5).blk t).view.read (Elt Ideal)
      (SqueezeExcite.gate (SqueezeExcite.hidden (V c main_v0) (V c main_arg1) (V c main_arg2)) (V c main_arg3) (V c main_arg4)) := by
  show (cfg1.win 5).cut (grid1.coords t) ((dat1 V c).after 5 t) = _
  rw [after1_5]
  unfold out1_5
  rw [View.canon_unit_zero zero2'']
  simp only [View.ld_unit_zero (S := S32x256) zero2'', View.ld_unit_zero (S := S256x256) zero2'',
    View.ld_unit_zero (S := S256) zero1]
  obtain ⟨g00, g01, g10, g11, g20, g30, g31, g40, g50, g51⟩ := gate_index t
  refine funext fun (j : S32x256.Idx) => ?_
  obtain ⟨n, o, rfl⟩ : ∃ (n : Fin 32) (o : Fin 256), j = ix2 n o := ⟨j 0, j 1, eq_ix2 j⟩
  refine (Body.gate_at (iblk1 V c 0 t) (iblk1 V c 1 t) (iblk1 V c 2 t) (iblk1 V c 3 t) (iblk1 V c 4 t) n o).trans ?_
  show _ = SqueezeExcite.gate (SqueezeExcite.hidden (V c main_v0) (V c main_arg1) (V c main_arg2)) (V c main_arg3) (V c main_arg4)
      (((cfg1.win 5).blk t).view.emb (ix2 n o))
  refine gate_congr (funext fun y => ?_) (funext fun y => ?_) (funext fun y => ?_) (funext fun y => ?_) (funext fun y => ?_) ?_
  · show V c main_v0 (((cfg1.win 0).blk t).view.emb y) = V c main_v0 y
    refine congrArg (V c main_v0) (funext fun a => Fin.ext ?_)
    match a with
    | ⟨0, _⟩ => show win1_0.index t (0 : Fin 2) * 32 + 1 * (y 0).val = (y 0).val; rw [g00]; omega
    | ⟨1, _⟩ => show win1_0.index t (1 : Fin 2) * 256 + 1 * (y 1).val = (y 1).val; rw [g01]; omega
  · show V c main_arg1 (((cfg1.win 1).blk t).view.emb y) = V c main_arg1 y
    refine congrArg (V c main_arg1) (funext fun a => Fin.ext ?_)
    match a with
    | ⟨0, _⟩ => show win1_1.index t (0 : Fin 2) * 256 + 1 * (y 0).val = (y 0).val; rw [g10]; omega
    | ⟨1, _⟩ => show win1_1.index t (1 : Fin 2) * 256 + 1 * (y 1).val = (y 1).val; rw [g11]; omega
  · show V c main_arg2 (((cfg1.win 2).blk t).view.emb y) = V c main_arg2 y
    refine congrArg (V c main_arg2) (funext fun a => Fin.ext ?_)
    match a with
    | ⟨0, _⟩ => show win1_2.index t (0 : Fin 1) * 256 + 1 * (y 0).val = (y 0).val; rw [g20]; omega
  · show V c main_arg3 (((cfg1.win 3).blk t).view.emb y) = V c main_arg3 y
    refine congrArg (V c main_arg3) (funext fun a => Fin.ext ?_)
    match a with
    | ⟨0, _⟩ => show win1_3.index t (0 : Fin 2) * 256 + 1 * (y 0).val = (y 0).val; rw [g30]; omega
    | ⟨1, _⟩ => show win1_3.index t (1 : Fin 2) * 256 + 1 * (y 1).val = (y 1).val; rw [g31]; omega
  · show V c main_arg4 (((cfg1.win 4).blk t).view.emb y) = V c main_arg4 y
    refine congrArg (V c main_arg4) (funext fun a => Fin.ext ?_)
    match a with
    | ⟨0, _⟩ => show win1_4.index t (0 : Fin 1) * 256 + 1 * (y 0).val = (y 0).val; rw [g40]; omega
  · funext a; apply Fin.ext
    match a with
    | ⟨0, _⟩ => show n.val = win1_5.index t (0 : Fin 2) * 32 + 1 * n.val; rw [g50]; omega
    | ⟨1, _⟩ => show o.val = win1_5.index t (1 : Fin 2) * 256 + 1 * o.val; rw [g51]; omega

/-- An index of the array of gates is in the point's block iff each coordinate is in the block's range on its axis. -/
theorem gate_mem (t : Fin cfg1.N) (i : S32x256.Idx) :
    i ∈ ((cfg1.win 5).blk t).view.set ↔ ∀ a : Fin 2, win1_5.index t a * S32x256.size a ≤ (i a).val
      ∧ (i a).val < win1_5.index t a * S32x256.size a + S32x256.size a := by
  show i ∈ ((View.whole main_v1).slice (win1_5.rect t)).set ↔ _
  rw [View.set_slice_whole, Rect.mem_set_unit]
  exact Iff.rfl

/-- The one block is the whole array. -/
theorem gate_cover (i : S32x256.Idx) :
    ∃ t : Fin cfg1.N, (cfg1.win 5).flush t = true ∧ i ∈ ((cfg1.win 5).blk t).view.set := by
  have h0 : (i 0).val < 32 := (i 0).isLt
  have h1 : (i 1).val < 256 := (i 1).isLt
  obtain ⟨t, -⟩ := gate_point
  obtain ⟨-, -, -, -, -, -, -, -, g50, g51⟩ := gate_index t
  refine ⟨t, flush1_5 t, ?_⟩
  rw [gate_mem]
  intro a
  match a with
  | ⟨0, _⟩ => show win1_5.index t (0 : Fin 2) * 32 ≤ (i 0).val ∧ (i 0).val < win1_5.index t (0 : Fin 2) * 32 + 32; omega
  | ⟨1, _⟩ => show win1_5.index t (1 : Fin 2) * 256 ≤ (i 1).val ∧ (i 1).val < win1_5.index t (1 : Fin 2) * 256 + 256; omega

/-- After the region the array of gates is the specification's gate of the five arrays as the region finds them. -/
theorem gate_final (c : Dev nD) :
    (dat1 V c).arrAt 5 cfg1.N
      = SqueezeExcite.gate (SqueezeExcite.hidden (V c main_v0) (V c main_arg1) (V c main_arg2)) (V c main_arg3) (V c main_arg4) :=
  (dat1 V c).arrAt_eq_of_cover 5 _ (fun t _ => gate_flushed V c t) gate_cover

end Cert.KernelIdeal.Arrays

end
-- ==== Proof.LibPlanes.lean ====
/-
  Planes of a rank-4 array, at any extents.  A [a, b, c, d] array is a [a, b] family of c × d planes.

    * `sum_plane`: a sum over the indices whose two leading coordinates are (n, k) is the double sum over the plane's
      c rows and d columns;
    * `hostSum_plane`: so the host's sum over axes 2 and 3, started at `init`, read at (n, k) is `init` plus that
      double sum — given only that an index drops to (n, k) exactly when its leading coordinates are n and k;
    * `spread_plane`: a [a, b] array cast to [a, b, 1, 1] and broadcast to [a, b, c, d] reads, at (p, q, r, s), the
      array at (p, q): one value spread over each plane.
-/
import Idealize.ShloMosaic.PureOps.Ideal
import Idealize.ShloMosaic.Lib.Pipeline.Value
import Idealize.ShloMosaic.Lib.ValueIdx

noncomputable section

namespace Cert.LibPlanes

open Idealize.ShloMosaic Idealize.ShloMosaic.ValueIdx

/-- A sum over the indices of an [a, b, c, d] array whose two leading coordinates are (n, k) — `P` is any predicate
    that says so — is the double sum over the two trailing coordinates. -/
theorem sum_plane {M : Type*} [AddCommMonoid M] {a b c d : Nat} (x : (⟨4, ![a, b, c, d]⟩ : Shape).Idx → M)
    (n : Fin a) (k : Fin b) (P : (⟨4, ![a, b, c, d]⟩ : Shape).Idx → Prop) [DecidablePred P]
    (hP : ∀ i : (⟨4, ![a, b, c, d]⟩ : Shape).Idx, P i ↔ ((i 0).val = n.val ∧ (i 1).val = k.val)) :
    ∑ i ∈ Finset.univ.filter P, x i = ∑ h : Fin c, ∑ w : Fin d, x (ix4 n k h w) := by
  rw [← Fintype.sum_prod_type']
  refine Finset.sum_nbij' (fun i => ((i 2 : Fin c), (i 3 : Fin d))) (fun p => ix4 n k p.1 p.2)
    (fun _ _ => Finset.mem_univ _) (fun p _ => Finset.mem_filter.mpr ⟨Finset.mem_univ _, (hP _).mpr ⟨rfl, rfl⟩⟩)
    (fun i hi => ?_) (fun p _ => rfl) (fun i hi => ?_)
  · obtain ⟨h0, h1⟩ := (hP i).mp (Finset.mem_filter.mp hi).2
    funext e
    match e with
    | ⟨0, _⟩ => exact Fin.ext h0.symm
    | ⟨1, _⟩ => exact Fin.ext h1.symm
    | ⟨2, _⟩ => rfl
    | ⟨3, _⟩ => rfl
  · obtain ⟨h0, h1⟩ := (hP i).mp (Finset.mem_filter.mp hi).2
    refine congrArg x ?_
    funext e
    match e with
    | ⟨0, _⟩ => exact Fin.ext h0
    | ⟨1, _⟩ => exact Fin.ext h1
    | ⟨2, _⟩ => rfl
    | ⟨3, _⟩ => rfl

/-- The host's sum over axes 2 and 3 of an [a, b, c, d] array at the extended reals, read at (n, k): the initial value
    plus the plane's double sum.  `hdrop` is the one fact about the reduction's shape condition that is used. -/
theorem hostSum_plane {a b c d : Nat} {axes : List (Fin 4)}
    (hr : (⟨4, ![a, b, c, d]⟩ : Shape).ReducesTo axes ⟨2, ![a, b]⟩) (x : (⟨4, ![a, b, c, d]⟩ : Shape).Idx → EReal) (init : EReal)
    (n : Fin a) (k : Fin b)
    (hdrop : ∀ i : (⟨4, ![a, b, c, d]⟩ : Shape).Idx, hr.drop i = ix2 n k ↔ ((i 0).val = n.val ∧ (i 1).val = k.val)) :
    Ideal.hostReduceAdd hr x init (ix2 n k) = init + ∑ h : Fin c, ∑ w : Fin d, x (ix4 n k h w) := by
  unfold Ideal.hostReduceAdd
  rw [sum_plane x n k _ hdrop]

/-- One value per plane: a [a, b] array cast to [a, b, 1, 1] and broadcast over the c × d planes, read at (p, q, r, s). -/
theorem spread_plane {α : Type} {a b c d : Nat} (g : (⟨2, ![a, b]⟩ : Shape).Idx → α)
    (hc : (⟨2, ![a, b]⟩ : Shape).ShapeCasts ⟨4, ![a, b, 1, 1]⟩)
    (hb : (⟨4, ![a, b, 1, 1]⟩ : Shape).Broadcasts ⟨4, ![a, b, c, d]⟩)
    (p : Fin a) (q : Fin b) (r : Fin c) (s : Fin d) :
    broadcastTo ⟨4, ![a, b, c, d]⟩ (shapeCast ⟨4, ![a, b, 1, 1]⟩ g hc) hb (ix4 p q r s) = g (ix2 p q) := by
  refine (broadcastTo_apply _ hb (ix4 p q r s) (ix4 p q (0 : Fin 1) (0 : Fin 1)) (fun e => ?_)).trans ?_
  · match e with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => show 0 = if (1 : Nat) = 1 then 0 else r.val; rw [if_pos rfl]
    | ⟨3, _⟩ => show 0 = if (1 : Nat) = 1 then 0 else s.val; rw [if_pos rfl]
  refine shapeCast_apply g hc (ix4 p q (0 : Fin 1) (0 : Fin 1)) (ix2 p q) ?_
  rw [Shape.rowMajor_val_two, Shape.rowMajor_val_four]
  show p.val * b + q.val = ((p.val * b + q.val) * 1 + 0) * 1 + 0
  omega

end Cert.LibPlanes

end
-- ==== Proof.ScaleBody.lean ====
/-
  The scale kernel's body at an entry.  On a [16, 256, 8, 56] block of `x` and the matching [16, 256] block of gates the
  body casts the gates to [16, 256, 1, 1], broadcasts them over the 8 × 56 trailing coordinates and multiplies: entry
  (p, q, r, s) of what it stores is the block's entry (p, q, r, s) times gate (p, q).
-/
import proofs.«103439_j1580547967692_1_alg».proof.Proof.Gen.KernelIdeal.Skeleton
import proofs.«103439_j1580547967692_1_alg».proof.Proof.Spec
import proofs.«103439_j1580547967692_1_alg».proof.Proof.LibPlanes
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- Entry (p, q, r, s) of the stored product. -/
theorem scale_at (g : Vec Ideal S16x256 .f32) (xb : Vec Ideal S16x256x8x56 .f32)
    (p : Fin 16) (q : Fin 256) (r : Fin 8) (s : Fin 56) :
    k2_pay1 (F := Ideal) g xb (ix4 p q r s) = xb (ix4 p q r s) * g (ix2 p q) := by
  unfold k2_pay1
  show xb (ix4 p q r s) * _ = _
  refine congrArg (xb (ix4 p q r s) * ·) ?_
  -- the gates spread over the planes: (p, q, r, s) reads gate (p, q)
  refine (LibPlanes.spread_plane (shapeCast S16x256 g shapeCasts_S16x256_S16x256) shapeCasts_S16x256_S16x256x1x1
    broadcasts_S16x256x1x1_S16x256x8x56 p q r s).trans ?_
  rw [shapeCast_self]

end Cert.KernelIdeal.Body

end
-- ==== Proof.ScaleArray.lean ====
/-
  The scale region as one function of what it finds.  The grid is 2 × 7; at point (i, j) the body sees rows
  16 i … 16 i + 15 and spatial rows 8 j … 8 j + 7 of `x` (all 256 channels, all 56 columns) and rows 16 i … 16 i + 15 of
  the gates, and writes the same box of the result.  Entry by entry the body multiplies an entry of `x` by the gate
  of its row and channel, so each written block is that block of `scaled x gate`; the 14 blocks tile the result
  array, so after the region the array is `scaled x gate`.
-/
import proofs.«103439_j1580547967692_1_alg».proof.Proof.Gen.KernelIdeal.Frame
import proofs.«103439_j1580547967692_1_alg».proof.Proof.ScaleBody
import Idealize.ShloMosaic.Lib.Pipeline.Value
import Idealize.ShloMosaic.Lib.ValueIdx

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat)

-- The contents of the TensorCore's buffers when the region is entered: every statement here holds for any.
variable (V : (c : Dev nD) → (b : Ref sig .tc) → Buf (Elt Ideal) ((c : Thread nD τ).loc b))

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The printed index maps over the grid: the input block of `x` sits where the output block does, the gates' block on
    the output block's row index, and the output's block indices are (i, 0, j, 0) with i ≤ 1 and j ≤ 6. -/
theorem scale_index : ∀ t : Fin cfg2.N,
    win2_0.index t (0 : Fin 4) = win2_2.index t (0 : Fin 4) ∧ win2_0.index t (1 : Fin 4) = win2_2.index t (1 : Fin 4)
    ∧ win2_0.index t (2 : Fin 4) = win2_2.index t (2 : Fin 4) ∧ win2_0.index t (3 : Fin 4) = win2_2.index t (3 : Fin 4)
    ∧ win2_1.index t (0 : Fin 2) = win2_2.index t (0 : Fin 4) ∧ win2_1.index t (1 : Fin 2) = 0
    ∧ win2_2.index t (0 : Fin 4) ≤ 1 ∧ win2_2.index t (1 : Fin 4) = 0
    ∧ win2_2.index t (2 : Fin 4) ≤ 6 ∧ win2_2.index t (3 : Fin 4) = 0 :=
  (by decide +kernel : ∀ t : Fin grid2.N, _)

/-- Every block index (i, 0, j, 0) with i < 2 and j < 7 is some point's. -/
theorem scale_onto : ∀ (i : Fin 2) (j : Fin 7), ∃ t : Fin cfg2.N, win2_2.index t = ![i.val, 0, j.val, 0] :=
  (by decide +kernel : ∀ (i : Fin 2) (j : Fin 7), ∃ t : Fin grid2.N, win2_2.index t = ![i.val, 0, j.val, 0])

/-- A product of an entry of `x` and the gate of that entry's row and channel is an entry of `scaled x gate`. -/
theorem scaled_block {X : SqueezeExcite.I4 → EReal} {G : SqueezeExcite.I2 → EReal} {a b : EReal}
    (i : SqueezeExcite.I4) (k : SqueezeExcite.I2) (ha : a = X i) (hb : b = G k) (hk : k = ix2 (i 0) (i 1)) :
    a * b = SqueezeExcite.scaled X G i := by
  subst ha hb hk; rfl

/-- What point `t` writes back is block `t` of `scaled x gate`, for `x` and `gate` as the region finds them. -/
theorem scale_flushed (c : Dev nD) (t : Fin cfg2.N) :
    (dat2 V c).flushed 2 t
      = ((cfg2.win 2).blk t).view.read (Elt Ideal) (SqueezeExcite.scaled (V c main_arg0) (V c main_v1)) := by
  show (cfg2.win 2).cut (grid2.coords t) ((dat2 V c).after 2 t) = _
  rw [after2_2]
  unfold out2_2
  rw [View.canon_unit_zero zero4]
  simp only [View.ld_unit_zero (S := S16x256x8x56) zero4, View.ld_unit_zero (S := S16x256) zero2]
  obtain ⟨e0, e1, e2, e3, e4, e5, -, e7, -⟩ := scale_index t
  refine funext fun (j : S16x256x8x56.Idx) => ?_
  obtain ⟨p, q, r, s, rfl⟩ : ∃ (p : Fin 16) (q : Fin 256) (r : Fin 8) (s : Fin 56), j = ix4 p q r s :=
    ⟨j 0, j 1, j 2, j 3, eq_ix4 j⟩
  refine (Body.scale_at (iblk2 V c 1 t) (iblk2 V c 0 t) p q r s).trans ?_
  have hx : ((cfg2.win 0).blk t).view.emb (ix4 p q r s) = ((cfg2.win 2).blk t).view.emb (ix4 p q r s) := by
    funext a; apply Fin.ext
    match a with
    | ⟨0, _⟩ => show win2_0.index t (0 : Fin 4) * 16 + 1 * p.val = win2_2.index t (0 : Fin 4) * 16 + 1 * p.val; rw [e0]
    | ⟨1, _⟩ => show win2_0.index t (1 : Fin 4) * 256 + 1 * q.val = win2_2.index t (1 : Fin 4) * 256 + 1 * q.val; rw [e1]
    | ⟨2, _⟩ => show win2_0.index t (2 : Fin 4) * 8 + 1 * r.val = win2_2.index t (2 : Fin 4) * 8 + 1 * r.val; rw [e2]
    | ⟨3, _⟩ => show win2_0.index t (3 : Fin 4) * 56 + 1 * s.val = win2_2.index t (3 : Fin 4) * 56 + 1 * s.val; rw [e3]
  have hg : ((cfg2.win 1).blk t).view.emb (ix2 p q)
      = ix2 (((cfg2.win 2).blk t).view.emb (ix4 p q r s) 0) (((cfg2.win 2).blk t).view.emb (ix4 p q r s) 1) := by
    funext a; apply Fin.ext
    match a with
    | ⟨0, _⟩ => show win2_1.index t (0 : Fin 2) * 16 + 1 * p.val = win2_2.index t (0 : Fin 4) * 16 + 1 * p.val; rw [e4]
    | ⟨1, _⟩ => show win2_1.index t (1 : Fin 2) * 256 + 1 * q.val = win2_2.index t (1 : Fin 4) * 256 + 1 * q.val; rw [e5, e7]
  refine scaled_block (X := V c main_arg0) (G := V c main_v1) (((cfg2.win 2).blk t).view.emb (ix4 p q r s))
    (((cfg2.win 1).blk t).view.emb (ix2 p q)) ?_ ?_ hg
  · show V c main_arg0 (((cfg2.win 0).blk t).view.emb (ix4 p q r s)) = V c main_arg0 (((cfg2.win 2).blk t).view.emb (ix4 p q r s))
    rw [hx]
  · rfl

/-- An index of the result array is in point `t`'s block iff each coordinate is in the block's range on its axis. -/
theorem scale_mem (t : Fin cfg2.N) (i : S32x256x56x56.Idx) :
    i ∈ ((cfg2.win 2).blk t).view.set ↔ ∀ a : Fin 4, win2_2.index t a * S16x256x8x56.size a ≤ (i a).val
      ∧ (i a).val < win2_2.index t a * S16x256x8x56.size a + S16x256x8x56.size a := by
  show i ∈ ((View.whole main_v2).slice (win2_2.rect t)).set ↔ _
  rw [View.set_slice_whole, Rect.mem_set_unit]
  exact Iff.rfl

/-- The 14 blocks cover the result array: entry (n, ·, h, ·) is in the block of point (n / 16, h / 8). -/
theorem scale_cover (i : S32x256x56x56.Idx) :
    ∃ t : Fin cfg2.N, (cfg2.win 2).flush t = true ∧ i ∈ ((cfg2.win 2).blk t).view.set := by
  have h0 : (i 0).val < 32 := (i 0).isLt
  have h1 : (i 1).val < 256 := (i 1).isLt
  have h2 : (i 2).val < 56 := (i 2).isLt
  have h3 : (i 3).val < 56 := (i 3).isLt
  obtain ⟨t, ht⟩ := scale_onto ⟨(i 0).val / 16, by omega⟩ ⟨(i 2).val / 8, by omega⟩
  have q0 : win2_2.index t (0 : Fin 4) = (i 0).val / 16 := congrFun ht 0
  have q1 : win2_2.index t (1 : Fin 4) = 0 := congrFun ht 1
  have q2 : win2_2.index t (2 : Fin 4) = (i 2).val / 8 := congrFun ht 2
  have q3 : win2_2.index t (3 : Fin 4) = 0 := congrFun ht 3
  refine ⟨t, flush2_2 t, ?_⟩
  rw [scale_mem]
  intro a
  match a with
  | ⟨0, _⟩ => show win2_2.index t (0 : Fin 4) * 16 ≤ (i 0).val ∧ (i 0).val < win2_2.index t (0 : Fin 4) * 16 + 16; omega
  | ⟨1, _⟩ => show win2_2.index t (1 : Fin 4) * 256 ≤ (i 1).val ∧ (i 1).val < win2_2.index t (1 : Fin 4) * 256 + 256; omega
  | ⟨2, _⟩ => show win2_2.index t (2 : Fin 4) * 8 ≤ (i 2).val ∧ (i 2).val < win2_2.index t (2 : Fin 4) * 8 + 8; omega
  | ⟨3, _⟩ => show win2_2.index t (3 : Fin 4) * 56 ≤ (i 3).val ∧ (i 3).val < win2_2.index t (3 : Fin 4) * 56 + 56; omega

/-- After the region the result array is `x` scaled by the gates, for `x` and the gates as the region finds them. -/
theorem scale_final (c : Dev nD) :
    (dat2 V c).arrAt 2 cfg2.N = SqueezeExcite.scaled (V c main_arg0) (V c main_v1) :=
  (dat2 V c).arrAt_eq_of_cover 2 _ (fun t _ => scale_flushed V c t) scale_cover

end Cert.KernelIdeal.Arrays

end
-- ==== Proof.KValue.lean ====
/-
  The idealized kernel's value.  The run ends with the result array at the launch memory folded through the three
  regions' write-backs.  Unfolding that fold one region at a time:

    * the scale region leaves `scaled x₂ g₂`, where x₂ and g₂ are `x` and the gates as it finds them;
    * it finds `x` as launched (neither earlier region writes it) and the gates as the excite region left them,
      `gate (hidden p₁ W1 b1) W2 b2` of the means and the four parameter arrays as that region finds them;
    * the excite region finds the parameter arrays as launched and the means as the pool region left them,
      `pooled x` of `x` as launched.

  So the result array ends at the specification's `result` of the five arguments as launched.
-/
import proofs.«103439_j1580547967692_1_alg».proof.Proof.KRun
import proofs.«103439_j1580547967692_1_alg».proof.Proof.PoolArray
import proofs.«103439_j1580547967692_1_alg».proof.Proof.GateArray
import proofs.«103439_j1580547967692_1_alg».proof.Proof.ScaleArray

set_option maxRecDepth 16384

noncomputable section

namespace Cert.KernelIdeal.Named

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What each region finds -/

/-- The excite region finds the means the pool region left: `pooled x` of `x` as launched. -/
theorem means_entry (c : Dev nD) : V1 m ρ c main_v0 = SqueezeExcite.pooled (m ((c : Thread nD τ).loc main_arg0)) :=
  (W1_arr m ρ c 1).trans (Arrays.pool_final (V0 m ρ) c)

/-- The excite region finds the four parameter arrays as launched: the pool region writes none of them. -/
theorem w1_entry (c : Dev nD) : V1 m ρ c main_arg1 = m ((c : Thread nD τ).loc main_arg1) :=
  W1_of_ne m ρ c main_arg1 (by decide)
theorem b1_entry (c : Dev nD) : V1 m ρ c main_arg2 = m ((c : Thread nD τ).loc main_arg2) :=
  W1_of_ne m ρ c main_arg2 (by decide)
theorem w2_entry (c : Dev nD) : V1 m ρ c main_arg3 = m ((c : Thread nD τ).loc main_arg3) :=
  W1_of_ne m ρ c main_arg3 (by decide)
theorem b2_entry (c : Dev nD) : V1 m ρ c main_arg4 = m ((c : Thread nD τ).loc main_arg4) :=
  W1_of_ne m ρ c main_arg4 (by decide)

/-- The scale region finds `x` as launched: the excite region does not touch it, and the pool region only reads it. -/
theorem x_entry (c : Dev nD) : V2 m ρ c main_arg0 = m ((c : Thread nD τ).loc main_arg0) :=
  (W2_of_ne m ρ c main_arg0 (by decide)).trans
    ((W1_arr m ρ c 0).trans (((dat0 (V0 m ρ) c).arrAt_in 0 rfl _).trans (A_eq0 (V0 m ρ) c 0)))

/-- The scale region finds the gates the excite region left. -/
theorem gates_entry (c : Dev nD) :
    V2 m ρ c main_v1 = SqueezeExcite.gate (SqueezeExcite.hidden (SqueezeExcite.pooled (m ((c : Thread nD τ).loc main_arg0)))
      (m ((c : Thread nD τ).loc main_arg1)) (m ((c : Thread nD τ).loc main_arg2)))
      (m ((c : Thread nD τ).loc main_arg3)) (m ((c : Thread nD τ).loc main_arg4)) :=
  (W2_arr m ρ c 5).trans ((Arrays.gate_final (V1 m ρ) c).trans
    (funext fun j => Arrays.gate_congr (means_entry m ρ c) (w1_entry m ρ c) (b1_entry m ρ c) (w2_entry m ρ c)
      (b2_entry m ρ c) rfl))

/-! ## The result array -/

/-- After the run the result array holds the specification's function of the five arguments as launched. -/
theorem result_eq (c : Dev nD) :
    W3 m ρ c (Proc.devRef .tc main_v2) = SqueezeExcite.result (m ((c : Thread nD τ).loc main_arg0))
      (m ((c : Thread nD τ).loc main_arg1)) (m ((c : Thread nD τ).loc main_arg2))
      (m ((c : Thread nD τ).loc main_arg3)) (m ((c : Thread nD τ).loc main_arg4)) :=
  (W3_arr m ρ c 2).trans ((Arrays.scale_final (V2 m ρ) c).trans
    (congrArg₂ SqueezeExcite.scaled (x_entry m ρ c) (gates_entry m ρ c)))

/-- The run, read: the result array at the specification, the arguments unchanged. -/
theorem value_run : θ_run defs (onTc (τ := τ) (main (F := Ideal))) ⟨m, fun _ => 0, ρ⟩ (fun r => ∀ c : Dev nD,
      r.2.mem ((c.tc : Thread nD τ).loc main_v2) = SqueezeExcite.result (m ((c : Thread nD τ).loc main_arg0))
        (m ((c : Thread nD τ).loc main_arg1)) (m ((c : Thread nD τ).loc main_arg2))
        (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (run m ρ)

end Cert.KernelIdeal.Named

end
-- ==== Proof.RefValue.lean ====
/-
  The reference computes the specification.  Its program is twenty host operations; the generated read-at-an-index
  lemmas turn each into a statement about one entry, and what is left is to recognise the four stages:

    * the sum over axes 2 and 3 of `x`, started at zero and divided by the broadcast literal 3136, is the plane's
      mean — the indices that drop to (n, c) are the (n, c, h, w), and a quotient by 3136 is the product with 1/3136;
    * each contraction over the second axis of both operands plus the bias row broadcast over the rows is a dense layer;
      the called `relu` is a maximum with a broadcast zero;
    * 1 / (1 + exp (−g)) is the logistic function of g;
    * the gate broadcast through [32, 256, 1, 1] over the planes, times `x`.
-/
import proofs.«103439_j1580547967692_1_alg».proof.Proof.Gen.ReferenceIdeal.Read
import proofs.«103439_j1580547967692_1_alg».proof.Proof.Spec
import proofs.«103439_j1580547967692_1_alg».proof.Proof.LibPlanes
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx

/-! ## The mean -/

/-- An index of `x` drops to (n, c) under the reduction over axes 2 and 3 exactly when its two leading coordinates are n and c. -/
theorem drop_iff (i : S32x256x56x56.Idx) (n : Fin 32) (c : Fin 256) :
    reducesTo_S32x256x56x56_S32x256_d2_3.drop i = ix2 n c ↔ ((i 0).val = n.val ∧ (i 1).val = c.val) := by
  constructor
  · intro h
    exact ⟨(Shape.ReducesTo.drop_apply_val_of_eq reducesTo_S32x256x56x56_S32x256_d2_3 i 0 0).symm.trans
        (congrArg (fun j : S32x256.Idx => (j 0).val) h),
      (Shape.ReducesTo.drop_apply_val_of_eq reducesTo_S32x256x56x56_S32x256_d2_3 i 1 1).symm.trans
        (congrArg (fun j : S32x256.Idx => (j 1).val) h)⟩
  · rintro ⟨h0, h1⟩
    funext b
    apply Fin.ext
    match b with
    | ⟨0, _⟩ => exact (Shape.ReducesTo.drop_apply_val_of_eq reducesTo_S32x256x56x56_S32x256_d2_3 i 0 0).trans h0
    | ⟨1, _⟩ => exact (Shape.ReducesTo.drop_apply_val_of_eq reducesTo_S32x256x56x56_S32x256_d2_3 i 1 1).trans h1

/-- The reference's first three operations compute the planes' means. -/
theorem ref_pooled (x : (⟨S32x256x56x56, .f32⟩ : BufTy).Contents (Elt Ideal)) :
    val_main_v2 (F := Ideal) x = SqueezeExcite.pooled x := by
  funext j
  obtain ⟨n, c, rfl⟩ : ∃ (n : Fin 32) (c : Fin 256), j = ix2 n c := ⟨j 0, j 1, eq_ix2 j⟩
  show _ = (∑ h : Fin 56, ∑ w : Fin 56, x (ix4 n c h w)) * SqueezeExcite.invArea
  rw [val_main_v2_apply, val_main_v1_apply, val_main_cst_0_apply, Ideal.hostDivf_def, Ideal.ofBits_def,
    SqueezeExcite.ofBits_3136, SqueezeExcite.div_area]
  refine congrArg (· * SqueezeExcite.invArea) ?_
  unfold val_main_v0 Host.reduceAdd
  rw [Ideal.hostReduceAdd_def]
  refine (LibPlanes.hostSum_plane reducesTo_S32x256x56x56_S32x256_d2_3 x _ n c (fun i => drop_iff i n c)).trans ?_
  show Ideal.ofBits .f32 0x00000000#32 + _ = _
  rw [Ideal.ofBits_zero_f32, zero_add]

/-! ## The two layers -/

theorem lrow (n : Fin 32) (o k : Fin 256) : lidx_main_v3 (ix2 n o) k = ix2 n k :=
  funext fun a => by match a with | ⟨0, _⟩ => rfl | ⟨1, _⟩ => rfl
theorem rrow (n : Fin 32) (o k : Fin 256) : ridx_main_v3 (ix2 n o) k = ix2 o k :=
  funext fun a => by match a with | ⟨0, _⟩ => rfl | ⟨1, _⟩ => rfl
theorem lrow' (n : Fin 32) (o k : Fin 256) : lidx_main_v8 (ix2 n o) k = ix2 n k :=
  funext fun a => by match a with | ⟨0, _⟩ => rfl | ⟨1, _⟩ => rfl
theorem rrow' (n : Fin 32) (o k : Fin 256) : ridx_main_v8 (ix2 n o) k = ix2 o k :=
  funext fun a => by match a with | ⟨0, _⟩ => rfl | ⟨1, _⟩ => rfl
theorem bias_col (n : Fin 32) (o : Fin 256) : idx_main_v4 (idx_main_v5 (ix2 n o)) = ix1 o :=
  funext fun a => by match a with | ⟨0, _⟩ => rfl
theorem bias_col' (n : Fin 32) (o : Fin 256) : idx_main_v9 (idx_main_v10 (ix2 n o)) = ix1 o :=
  funext fun a => by match a with | ⟨0, _⟩ => rfl

/-- Operations 3 to 7: the first dense layer on the means, rectified. -/
theorem ref_hidden (x : (⟨S32x256x56x56, .f32⟩ : BufTy).Contents (Elt Ideal)) (W1 : (⟨S256x256, .f32⟩ : BufTy).Contents (Elt Ideal))
    (b1 : (⟨S256, .f32⟩ : BufTy).Contents (Elt Ideal)) :
    val_main_v7 (F := Ideal) x W1 b1 = SqueezeExcite.hidden (SqueezeExcite.pooled x) W1 b1 := by
  funext j
  obtain ⟨n, o, rfl⟩ : ∃ (n : Fin 32) (o : Fin 256), j = ix2 n o := ⟨j 0, j 1, eq_ix2 j⟩
  show _ = max ((∑ k : Fin 256, SqueezeExcite.pooled x (ix2 n k) * W1 (ix2 o k)) + b1 (ix1 o)) 0
  rw [val_main_v7_apply, val_main_v6_apply, val_main_v3_apply, val_main_v5_apply, val_main_v4_apply,
    val_main_call0_v0_apply, val_main_call0_cst_apply, bias_col, ref_pooled]
  simp only [lrow, rrow, Ideal.maximumf_def, Ideal.addf_def, Ideal.ofBits_def, Ideal.ofBits_zero_f32]

/-- Operations 8 to 17: the second dense layer, then 1 / (1 + exp (−g)), the logistic function. -/
theorem ref_gate (x : (⟨S32x256x56x56, .f32⟩ : BufTy).Contents (Elt Ideal)) (W1 : (⟨S256x256, .f32⟩ : BufTy).Contents (Elt Ideal))
    (b1 : (⟨S256, .f32⟩ : BufTy).Contents (Elt Ideal)) (W2 : (⟨S256x256, .f32⟩ : BufTy).Contents (Elt Ideal))
    (b2 : (⟨S256, .f32⟩ : BufTy).Contents (Elt Ideal)) :
    val_main_v17 (F := Ideal) x W1 b1 W2 b2
      = SqueezeExcite.gate (SqueezeExcite.hidden (SqueezeExcite.pooled x) W1 b1) W2 b2 := by
  funext j
  obtain ⟨n, o, rfl⟩ : ∃ (n : Fin 32) (o : Fin 256), j = ix2 n o := ⟨j 0, j 1, eq_ix2 j⟩
  show _ = Ideal.div 1 (1 + Ideal.exp (-((∑ k : Fin 256,
      SqueezeExcite.hidden (SqueezeExcite.pooled x) W1 b1 (ix2 n k) * W2 (ix2 o k)) + b2 (ix1 o))))
  rw [val_main_v17_apply, val_main_v16_apply, val_main_cst_2_apply, val_main_v15_apply, val_main_v14_apply,
    val_main_cst_1_apply, val_main_v13_apply, val_main_v12_apply, val_main_v11_apply, val_main_v8_apply,
    val_main_v10_apply, val_main_v9_apply, bias_col', ref_hidden]
  simp only [lrow', rrow', Ideal.hostDivf_def, Ideal.addf_def, Ideal.hostUnary_exp_def, Ideal.hostNegf_def,
    Ideal.negf_def, Ideal.ofBits_def, SqueezeExcite.ofBits_one]

/-! ## The whole function -/

/-- The reference's result term is the specification's function of the five arguments. -/
theorem ref_result (x : (⟨S32x256x56x56, .f32⟩ : BufTy).Contents (Elt Ideal)) (W1 : (⟨S256x256, .f32⟩ : BufTy).Contents (Elt Ideal))
    (b1 : (⟨S256, .f32⟩ : BufTy).Contents (Elt Ideal)) (W2 : (⟨S256x256, .f32⟩ : BufTy).Contents (Elt Ideal))
    (b2 : (⟨S256, .f32⟩ : BufTy).Contents (Elt Ideal)) :
    val_main_v20 (F := Ideal) x W1 b1 W2 b2 = SqueezeExcite.result x W1 b1 W2 b2 := by
  funext i
  obtain ⟨n, c, h, w, rfl⟩ : ∃ (n : Fin 32) (c : Fin 256) (h w : Fin 56), i = ix4 n c h w := ⟨i 0, i 1, i 2, i 3, eq_ix4 i⟩
  show _ = x (ix4 n c h w) * SqueezeExcite.gate (SqueezeExcite.hidden (SqueezeExcite.pooled x) W1 b1) W2 b2 (ix2 n c)
  rw [val_main_v20_apply, val_main_v19_apply, val_main_v18_apply, ref_gate, Ideal.mulf_def]
  refine congrArg (x (ix4 n c h w) * SqueezeExcite.gate _ W2 b2 ·) ?_
  funext a
  match a with
  | ⟨0, _⟩ => rfl
  | ⟨1, _⟩ => rfl

end Cert.ReferenceIdeal.RefValue

end
-- ==== Proof.lean ====
/-
  A squeeze-and-excite block on a [32, 256, 56, 56] input: every 56 × 56 plane is scaled by a gate computed from the
  planes' means through two dense layers on the 256 channels,

      result (n, c, h, w) = x (n, c, h, w) · logistic (W2 · max (W1 · mean x + b1) 0 + b2) (n, c).

  The kernel computes it in three pallas_calls — the means (a sum over each plane times the named constant 1/3136), the
  two dense layers (products into zero accumulators, in a narrower float format that the extended reals do not see), and
  the scaling —; the reference in twenty host operations (a sum over two axes divided by 3136, two contractions, the
  logistic function spelt 1 / (1 + exp (−g)), a broadcast product).  Over the extended reals both are the one function
  `SqueezeExcite.result` of the five arguments (Proof/Spec.lean):

    * the kernel's result array after its run is that function (Proof/KValue.lean: the three regions' arrays, each one
      whole-array function of what the region finds, chained through the run);
    * the reference's result term is that function (Proof/RefValue.lean).

  The two spellings of the mean meet in one law, a quotient by 3136 is the product with 1/3136 on every extended real,
  and sums over a plane are regrouped freely; no step needs the inputs finite, so the precondition is never opened.
  The three frames are the generated ones (the reference's is its generated run with the result dropped), and the one
  entry of the idealization's ledger is the named constant's statement.
-/
import proofs.«103439_j1580547967692_1_alg».proof.Defs
import proofs.«103439_j1580547967692_1_alg».proof.Proof.Gen.Kernel
import proofs.«103439_j1580547967692_1_alg».proof.Proof.Gen.Kernel.Skeleton
import proofs.«103439_j1580547967692_1_alg».proof.Proof.Gen.Kernel.Launch
import proofs.«103439_j1580547967692_1_alg».proof.Proof.Gen.Kernel.Points
import proofs.«103439_j1580547967692_1_alg».proof.Proof.Gen.Kernel.Frame
import proofs.«103439_j1580547967692_1_alg».proof.Proof.Gen.KernelIdeal
import proofs.«103439_j1580547967692_1_alg».proof.Proof.Gen.KernelIdeal.Skeleton
import proofs.«103439_j1580547967692_1_alg».proof.Proof.Gen.KernelIdeal.Launch
import proofs.«103439_j1580547967692_1_alg».proof.Proof.Gen.KernelIdeal.Points
import proofs.«103439_j1580547967692_1_alg».proof.Proof.Gen.KernelIdeal.Frame
import proofs.«103439_j1580547967692_1_alg».proof.Proof.Gen.ReferenceIdeal
import proofs.«103439_j1580547967692_1_alg».proof.Proof.Gen.Pre_finite_inputs
import proofs.«103439_j1580547967692_1_alg».proof.Proof.Gen.ReferenceIdeal.Run
import proofs.«103439_j1580547967692_1_alg».proof.Proof.Gen.ReferenceIdeal.Read
import proofs.«103439_j1580547967692_1_alg».proof.Proof.KValue
import proofs.«103439_j1580547967692_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the pool kernel's literal 0.000318877… is named, and the program's table gives
    the name the value 1/3136. -/
theorem preserves : Cert.preserves_Kernel_KernelIdeal :=
  IdealRules.named_const.statement Cert.KernelIdeal.κ "inv_3136" .f32 0x39A72F05#32 ((1 / 3136 : ℝ) : EReal) rfl

/-- Over the extended reals, from memories that agree on the five arguments, the idealized kernel and the idealized
    reference both end with the specification's function of the arguments in their result arrays. -/
theorem algebraic : Cert.algebraic_KernelIdeal_ReferenceIdeal := by
  intro m ρ m' ρ' _ hagree
  refine ⟨fun c => SqueezeExcite.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Named.value_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v20_eq, Cert.ReferenceIdeal.RefValue.ref_result, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
